-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64x64 .f32) (main_arg6 : FVec F S64x64 .f32) (main_arg7 : FVec F S64 .f32) (main_arg8 : FVec F S64 .f32) (main_arg9 : FVec F S64 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x64 .f32) (main_arg1 : FVec F S8192x8192 .f32) (main_arg2 : FVec F S8192x8192 .f32) (main_arg3 : FVec F S8192x8192 .f32) (main_arg4 : FVec F S64x64 .f32) (main_arg5 : FVec F S64x64 .f32) (main_arg6 : FVec F S64x64 .f32) (main_arg7 : FVec F S64 .f32) (main_arg8 : FVec F S64 .f32) (main_arg9 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_v13 main_v16
-- ==== Kernel.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S1x64 : Shape := ⟨2, ![1, 64]⟩
abbrev S512x2048 : Shape := ⟨2, ![512, 2048]⟩
abbrev S512x64 : Shape := ⟨2, ![512, 64]⟩
abbrev S2048x64 : Shape := ⟨2, ![2048, 64]⟩
abbrev S_ : Shape := ⟨0, ![]⟩

abbrev nBuf : Space → Nat
  | .hbm => 48
  | .vmem => 13
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S8192x64, .f32⟩
  | .hbm, ⟨11, _⟩ => ⟨S8192x64, .bf16⟩
  | .hbm, ⟨12, _⟩ => ⟨S8192x64, .f32⟩
  | .hbm, ⟨13, _⟩ => ⟨S8192x64, .bf16⟩
  | .hbm, ⟨14, _⟩ => ⟨S8192x64, .f32⟩
  | .hbm, ⟨15, _⟩ => ⟨S8192x64, .bf16⟩
  | .hbm, ⟨16, _⟩ => ⟨S1x64, .f32⟩
  | .hbm, ⟨17, _⟩ => ⟨S8192x64, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S8192x64, .f32⟩
  | .hbm, ⟨41, _⟩ => ⟨S8192x64, .f32⟩
  | .hbm, ⟨42, _⟩ => ⟨S1x64, .f32⟩
  | .hbm, ⟨43, _⟩ => ⟨S8192x64, .f32⟩
  | .hbm, ⟨44, _⟩ => ⟨S8192x64, .f32⟩
  | .hbm, ⟨45, _⟩ => ⟨S1x64, .f32⟩
  | .hbm, ⟨46, _⟩ => ⟨S8192x64, .f32⟩
  | .hbm, ⟨47, _⟩ => ⟨S8192x64, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8192x64, .bf16⟩
  | .local _ .vmem, ⟨7, _⟩ => ⟨S8192x64, .bf16⟩
  | .local _ .vmem, ⟨8, _⟩ => ⟨S8192x64, .bf16⟩
  | .local _ .vmem, ⟨9, _⟩ => ⟨S1x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_23 : BitVec 32 := 0#32
  let v40 : BitVec 1 := Scalar.cmpi .ne v39 c0_i32_23
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8192x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8192x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  shapeCasts_S64_S1x64 : S64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  h_S2048x64 : 0 < S2048x64.numel
  shapeCasts_S2048x64_S2048x64 : S2048x64.ShapeCasts S2048x64
  inb_S512x2048_S512x2048_0_0 : ∀ a, (![0, 0] : Fin 2 → Nat) a + S512x2048.size a ≤ S512x2048.size a
  h_S512x2048 : 0 < S512x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reducesTo_S8192x64_S64_d0 : S8192x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x64_S64x64_S8192x64_1_0_0_1_n_n_wf : DotDims.WF S8192x64 S64x64 S8192x64 [1] [0] [0] [1] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .bf16 = 32 ∨ (Rect.block (s := S8192x64) S8192x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S8192x64.size a
  hwx0_4 : ∀ i : grid0.Coords, EltTy.bits .bf16 = 32 ∨ (Rect.block (s := S8192x64) S8192x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S8192x64.size a
  hwx0_5 : ∀ i : grid0.Coords, EltTy.bits .bf16 = 32 ∨ (Rect.block (s := S8192x64) S8192x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S8192x64.size a
  hwx0_7 : ∀ i : grid0.Coords, EltTy.bits .f32 = 32 ∨ (Rect.block (s := S8192x64) S512x64.size (cc0_transform_7 i) (hinb0_7 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8192x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S1x64 : Shape := ⟨2, ![1, 64]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S_, .f32⟩
  | .hbm, ⟨22, _⟩ => ⟨S8192x64, .f32⟩
  | .hbm, ⟨23, _⟩ => ⟨S8192x64, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S1x64, .f32⟩
  | .hbm, ⟨49, _⟩ => ⟨S8192x64, .f32⟩
  | .hbm, ⟨50, _⟩ => ⟨S8192x64, .f32⟩
  | .hbm, ⟨51, _⟩ => ⟨S1x64, .f32⟩
  | .hbm, ⟨52, _⟩ => ⟨S8192x64, .f32⟩
  | .hbm, ⟨53, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S64_d0 : S8192x64.ReducesTo [0] S64
  h_S_ : 0 < S_.numel
  bcast_S_S64 : S_.BroadcastsInDim S64 (![] : Fin 0 → Fin S64.rank)
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.ConvPieces.lean ====
/-
  One trip of the accumulating body, as a pure function of the blocks it loads.

  At grid point (i, j) the body holds the row block i / column block j of each of the three propagation matrices
  (512 x 2048), the three projected-feature arrays whole (8192 x 64) and the bias row, and carries a 512 x 64
  accumulator between the points of one row block. A trip adds to the accumulator, in turn, the product of each
  matrix block with rows [2048 j, 2048 j + 2048) of its projected features; at j = 0 the accumulator starts from the
  zero block; at j = 3 the output block is max(accumulator + bias, 0). The lemmas below read what each case of the
  body leaves in the accumulator and in the output block back as that function.
-/
import proofs.«165759_j17918603559109_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.ConvBody

open Cert.KernelIdeal Cert.KernelIdeal.Gen

variable {F : FTy → Type} [FloatOps F]

theorem zero_offsets : (![0, 0] : Fin 2 → Nat) = fun _ => 0 := funext fun a => by fin_cases a <;> rfl

/-- Rows [2048 j, 2048 j + 2048) of a projected-feature array: what the body slices out of the resident operand. -/
def stripe (i : grid0.Coords) (x : Vec F S8192x64 .bf16) : Vec F S2048x64 .bf16 :=
  View.ld x (Rect.unit (s := S8192x64) (k0_off1 i) S2048x64.size (k0_off1_inb i))

/-- One trip: the accumulator plus the three block products, added in the body's order. -/
def step (i : grid0.Coords) (l0 l1 l2 : Vec F S512x2048 .f32) (w0 w1 w2 : Vec F S8192x64 .bf16)
    (acc : Vec F S512x64 .f32) : Vec F S512x64 .f32 :=
  k0_pay1 (k0_pay4 (stripe i w2)) (k0_pay5 l2) (k0_pay7 (stripe i w1) l1 (k0_pay6 (stripe i w0) l0 acc))

/-- The epilogue at the last column block: max(accumulator + bias, 0). -/
def finish (acc : Vec F S512x64 .f32) (b : Vec F S1x64 .f32) : Vec F S512x64 .f32 := k0_pay2 acc b

/-- First column block: the accumulator is zeroed, then takes one trip. -/
theorem scratch_first (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8192x64 .bf16) (harg5 : arg5.IsWhole) (arg6 : Memref sig .tc .vmem S8192x64 .bf16) (harg6 : arg6.IsWhole) (arg7 : Memref sig .tc .vmem S8192x64 .bf16) (harg7 : arg7.IsWhole) (arg8 : Memref sig .tc .vmem S1x64 .f32) (harg8 : arg8.IsWhole) (arg9 : Memref sig .tc .vmem S512x64 .f32) (harg9 : arg9.IsWhole) (arg10 : Memref sig .tc .vmem S512x64 .f32) (harg10 : arg10.IsWhole) (hc0 : cond0_0 i) (hc1 : ¬cond0_1 i)
    (x0 : Vec F S512x2048 .f32) (x1 : Vec F S512x2048 .f32) (x2 : Vec F S512x2048 .f32) (x3 : Vec F S8192x64 .bf16) (x4 : Vec F S8192x64 .bf16) (x5 : Vec F S8192x64 .bf16) (x6 : Vec F S1x64 .f32) :
    sout0_A_0 c i arg2 harg2 arg3 harg3 arg4 harg4 arg5 harg5 arg6 harg6 arg7 harg7 arg8 harg8 arg9 harg9 arg10 harg10 hc0 hc1 x0 x1 x2 x3 x4 x5 x6 = step i x0 x1 x2 x3 x4 x5 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_run_names
  rw [View.canon_cons_unit_zero (S := S512x64) zero_offsets]
  simp only [View.readCov_cons_toLoadRect, View.readAt_eq_ld, harg2.read_unread, harg3.read_unread, harg4.read_unread,
    harg5.read_unread, harg6.read_unread, harg7.read_unread, View.ld_unit_zero (S := S512x2048) zero_offsets]
  rfl

/-- A middle column block: one trip over what the point before left. -/
theorem scratch_middle (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8192x64 .bf16) (harg5 : arg5.IsWhole) (arg6 : Memref sig .tc .vmem S8192x64 .bf16) (harg6 : arg6.IsWhole) (arg7 : Memref sig .tc .vmem S8192x64 .bf16) (harg7 : arg7.IsWhole) (arg8 : Memref sig .tc .vmem S1x64 .f32) (harg8 : arg8.IsWhole) (arg9 : Memref sig .tc .vmem S512x64 .f32) (harg9 : arg9.IsWhole) (arg10 : Memref sig .tc .vmem S512x64 .f32) (harg10 : arg10.IsWhole) (hc0 : ¬cond0_0 i) (hc1 : ¬cond0_1 i)
    (x0 : Vec F S512x2048 .f32) (x1 : Vec F S512x2048 .f32) (x2 : Vec F S512x2048 .f32) (x3 : Vec F S8192x64 .bf16) (x4 : Vec F S8192x64 .bf16) (x5 : Vec F S8192x64 .bf16) (x6 : Vec F S1x64 .f32) (xs0 : Vec F S512x64 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step i x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_run_names
  rw [View.canon_cons_unit_zero (S := S512x64) zero_offsets]
  simp only [View.readCov_cons_toLoadRect, View.readAt_eq_ld, harg2.read_unread, harg3.read_unread, harg4.read_unread,
    harg5.read_unread, harg6.read_unread, harg7.read_unread, harg8.read_unread, harg10.read_unread,
    View.ld_unit_zero (S := S512x2048) zero_offsets, View.ld_unit_zero (S := S512x64) zero_offsets,
    View.ld_unit_zero (S := S1x64) zero_offsets]
  rfl

/-- The last column block: one more trip over what the point before left. -/
theorem scratch_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8192x64 .bf16) (harg5 : arg5.IsWhole) (arg6 : Memref sig .tc .vmem S8192x64 .bf16) (harg6 : arg6.IsWhole) (arg7 : Memref sig .tc .vmem S8192x64 .bf16) (harg7 : arg7.IsWhole) (arg8 : Memref sig .tc .vmem S1x64 .f32) (harg8 : arg8.IsWhole) (arg9 : Memref sig .tc .vmem S512x64 .f32) (harg9 : arg9.IsWhole) (arg10 : Memref sig .tc .vmem S512x64 .f32) (harg10 : arg10.IsWhole) (hc0 : ¬cond0_0 i) (hc1 : cond0_1 i)
    (x0 : Vec F S512x2048 .f32) (x1 : Vec F S512x2048 .f32) (x2 : Vec F S512x2048 .f32) (x3 : Vec F S8192x64 .bf16) (x4 : Vec F S8192x64 .bf16) (x5 : Vec F S8192x64 .bf16) (x6 : Vec F S1x64 .f32) (xs0 : Vec F S512x64 .f32) :
    sout0_C_0 c i arg2 harg2 arg3 harg3 arg4 harg4 arg5 harg5 arg6 harg6 arg7 harg7 arg8 harg8 arg9 harg9 arg10 harg10 hc0 hc1 x0 x1 x2 x3 x4 x5 x6 xs0 = step i x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_run_names
  rw [View.canon_cons_unit_zero (S := S512x64) zero_offsets]
  simp only [View.readCov_cons_toLoadRect, View.readAt_eq_ld, harg2.read_unread, harg3.read_unread, harg4.read_unread,
    harg5.read_unread, harg6.read_unread, harg7.read_unread, harg8.read_unread, harg10.read_unread,
    View.ld_unit_zero (S := S512x2048) zero_offsets, View.ld_unit_zero (S := S512x64) zero_offsets,
    View.ld_unit_zero (S := S1x64) zero_offsets]
  rfl

/-- The last column block's output: the epilogue of the finished accumulator and the bias row. -/
theorem out_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S8192x64 .bf16) (harg5 : arg5.IsWhole) (arg6 : Memref sig .tc .vmem S8192x64 .bf16) (harg6 : arg6.IsWhole) (arg7 : Memref sig .tc .vmem S8192x64 .bf16) (harg7 : arg7.IsWhole) (arg8 : Memref sig .tc .vmem S1x64 .f32) (harg8 : arg8.IsWhole) (arg9 : Memref sig .tc .vmem S512x64 .f32) (harg9 : arg9.IsWhole) (arg10 : Memref sig .tc .vmem S512x64 .f32) (harg10 : arg10.IsWhole) (hc0 : ¬cond0_0 i) (hc1 : cond0_1 i)
    (x0 : Vec F S512x2048 .f32) (x1 : Vec F S512x2048 .f32) (x2 : Vec F S512x2048 .f32) (x3 : Vec F S8192x64 .bf16) (x4 : Vec F S8192x64 .bf16) (x5 : Vec F S8192x64 .bf16) (x6 : Vec F S1x64 .f32) (xs0 : Vec F S512x64 .f32) :
    out0_C_7 c i arg2 harg2 arg3 harg3 arg4 harg4 arg5 harg5 arg6 harg6 arg7 harg7 arg8 harg8 arg9 harg9 arg10 harg10 hc0 hc1 x0 x1 x2 x3 x4 x5 x6 xs0 = finish (step i x0 x1 x2 x3 x4 x5 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_run_names
  rw [View.canon_unit_zero (S := S512x64) zero_offsets]
  simp only [View.readCov_cons_toLoadRect, View.readAt_eq_ld, harg2.read_unread, harg3.read_unread, harg4.read_unread,
    harg5.read_unread, harg6.read_unread, harg7.read_unread, harg8.read_unread, harg10.read_unread,
    View.ld_unit_zero (S := S512x2048) zero_offsets, View.ld_unit_zero (S := S512x64) zero_offsets,
    View.ld_unit_zero (S := S1x64) zero_offsets]
  rfl

end Cert.KernelIdeal.ConvBody

end
-- ==== Proof.ConvSpec.lean ====
/-
  The graph convolution before batch normalisation, entry by entry, on the extended reals.

  For propagation matrices L0, L1, L2 (8192 x 8192), projected features W0, W1, W2 (8192 x 64) and a bias b (64),
  entry (R, f) of the layer is  max( sum_k (L0[R,k] W0[k,f] + L1[R,k] W1[k,f] + L2[R,k] W2[k,f]) + b[f], 0 ).
  One program forms the three length-8192 row sums whole and adds them; the other walks four column blocks of 2048
  and adds, per block, the three partial sums. Addition of extended reals is commutative and associative with 0 its
  unit (infinite entries included), so the two groupings are one number: `blocks_eq_rows`. Nothing here needs the
  entries to be finite.

  Coordinates are natural numbers and reads outside an array are 0, so that block arithmetic (2048 j + c, 512 I + r)
  is plain arithmetic.
-/
import Idealize.ShloMosaic.PureOps.Ideal
import Idealize.ShloMosaic.Lib.ValueIdx

noncomputable section

open Idealize.ShloMosaic Idealize.ShloMosaic.TcCoe Idealize.SL.Sem

namespace Cert.ConvBN

open Idealize.ShloMosaic.ValueIdx Finset

abbrev SNN : Shape := ⟨2, ![8192, 8192]⟩
abbrev SNC : Shape := ⟨2, ![8192, 64]⟩
abbrev SC : Shape := ⟨1, ![64]⟩

/-- Entry (a, b) of an 8192 x 8192 array; 0 outside it. -/
def atNN (X : SNN.Idx → EReal) (a b : ℕ) : EReal :=
  if h : a < 8192 ∧ b < 8192 then X (ix2 ⟨a, h.1⟩ ⟨b, h.2⟩) else 0
/-- Entry (a, b) of an 8192 x 64 array; 0 outside it. -/
def atNC (X : SNC.Idx → EReal) (a b : ℕ) : EReal :=
  if h : a < 8192 ∧ b < 64 then X (ix2 ⟨a, h.1⟩ ⟨b, h.2⟩) else 0
/-- Entry b of a length-64 vector; 0 outside it. -/
def atC (X : SC.Idx → EReal) (b : ℕ) : EReal :=
  if h : b < 64 then X (ix1 ⟨b, h⟩) else 0

theorem atNN_ix2 (X : SNN.Idx → EReal) (a b : Fin 8192) : atNN X a.val b.val = X (ix2 a b) := by
  unfold atNN; rw [dif_pos ⟨a.isLt, b.isLt⟩]
theorem atNC_ix2 (X : SNC.Idx → EReal) (a : Fin 8192) (b : Fin 64) : atNC X a.val b.val = X (ix2 a b) := by
  unfold atNC; rw [dif_pos ⟨a.isLt, b.isLt⟩]
theorem atC_ix1 (X : SC.Idx → EReal) (b : Fin 64) : atC X b.val = X (ix1 b) := by
  unfold atC; rw [dif_pos b.isLt]

/-- The k-th product along row R of L and column f of W. -/
def prodAt (L : SNN.Idx → EReal) (W : SNC.Idx → EReal) (R f k : ℕ) : EReal := atNN L R k * atNC W k f

/-- Column block j's share of entry (R, f) of L W: the 2048 products at positions 2048 j + c. -/
def blockSum (L : SNN.Idx → EReal) (W : SNC.Idx → EReal) (R f j : ℕ) : EReal :=
  ∑ c ∈ range 2048, prodAt L W R f (2048 * j + c)

/-- Entry (R, f) of L W: all 8192 products. -/
def rowSum (L : SNN.Idx → EReal) (W : SNC.Idx → EReal) (R f : ℕ) : EReal := ∑ k ∈ range 8192, prodAt L W R f k

/-- What one column block adds to entry (R, f): the three block shares, in the order L0, L1, L2. -/
def blockTerm (L0 L1 L2 : SNN.Idx → EReal) (W0 W1 W2 : SNC.Idx → EReal) (R f j : ℕ) : EReal :=
  (blockSum L0 W0 R f j + blockSum L1 W1 R f j) + blockSum L2 W2 R f j

/-- A sum over a * b consecutive positions is the sum over a blocks of the sums over each block's b positions. -/
theorem sum_range_blocks {M : Type*} [AddCommMonoid M] (g : ℕ → M) (a b : ℕ) :
    ∑ k ∈ range (a * b), g k = ∑ j ∈ range a, ∑ c ∈ range b, g (b * j + c) := by
  induction a with
  | zero => simp
  | succ a ih => rw [Nat.succ_mul, sum_range_add, ih, sum_range_succ, Nat.mul_comm a b]

theorem rowSum_eq_blocks (L : SNN.Idx → EReal) (W : SNC.Idx → EReal) (R f : ℕ) :
    rowSum L W R f = ∑ j ∈ range 4, blockSum L W R f j :=
  sum_range_blocks (prodAt L W R f) 4 2048

/-- THE LAW: four column blocks, each adding its three shares, give the three whole row sums added. -/
theorem blocks_eq_rows (L0 L1 L2 : SNN.Idx → EReal) (W0 W1 W2 : SNC.Idx → EReal) (R f : ℕ) :
    ∑ j ∈ range 4, blockTerm L0 L1 L2 W0 W1 W2 R f j
      = (rowSum L0 W0 R f + rowSum L1 W1 R f) + rowSum L2 W2 R f := by
  simp only [blockTerm, sum_add_distrib, rowSum_eq_blocks]

/-- Entry (R, f) of the layer before batch normalisation, by column blocks. -/
def convAt (L0 L1 L2 : SNN.Idx → EReal) (W0 W1 W2 : SNC.Idx → EReal) (b : SC.Idx → EReal) (R f : ℕ) : EReal :=
  max ((∑ j ∈ range 4, blockTerm L0 L1 L2 W0 W1 W2 R f j) + atC b f) 0

/-- The layer before batch normalisation, as an array. -/
def convOut (L0 L1 L2 : SNN.Idx → EReal) (W0 W1 W2 : SNC.Idx → EReal) (b : SC.Idx → EReal) : SNC.Idx → EReal :=
  fun i => convAt L0 L1 L2 W0 W1 W2 b (i 0).val (i 1).val

end Cert.ConvBN

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.ConvStepValue.lean ====
/-
  One trip of the body, read at an entry, on the extended reals.

  A rounding to bfloat16 is the identity there, and a matrix product into the zero block is the plain sum of
  products; so a trip adds to accumulator entry (r, f), for each of the three matrices in turn, the sum over the
  2048 columns c of the block of  block[r, c] * W[o + c, f],  where o = 2048 j is the first row of the stripe of
  the projected features the body slices at column block j.
-/
import proofs.«165759_j17918603559109_2_alg».proof.Proof.ConvPieces
import proofs.«165759_j17918603559109_2_alg».proof.Proof.ConvSpec
import proofs.«165759_j17918603559109_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.ConvBody

open Cert.KernelIdeal Cert.KernelIdeal.Gen Idealize.ShloMosaic.ValueIdx Cert.ConvBN

/-- An entry of the stripe the body slices at offsets (o, 0) is the array's entry o rows further down. -/
theorem stripe_apply (i : grid0.Coords) (o : ℕ) (hoff : k0_off1 i = ![o, 0]) (ho : o + 2048 ≤ 8192)
    (w : FVec Ideal S8192x64 .bf16) (cc : Fin 2048) (f : Fin 64) :
    stripe (F := Ideal) i w (ix2 cc f) = atNC w (o + cc.val) f.val := by
  have hcc := cc.isLt
  unfold atNC
  rw [dif_pos ⟨by omega, f.isLt⟩]
  unfold stripe
  show w ((Rect.unit (s := S8192x64) (k0_off1 i) S2048x64.size (k0_off1_inb i)).emb (ix2 cc f)) = _
  refine congrArg w (funext fun a => Fin.ext ?_)
  match a with
  | ⟨0, _⟩ => show k0_off1 i 0 + 1 * cc.val = o + cc.val; rw [hoff]; simp
  | ⟨1, _⟩ => show k0_off1 i 1 + 1 * f.val = f.val; rw [hoff]; simp

/-- The first product of a trip: accumulator + block * stripe. -/
theorem first_product_apply (B : FVec Ideal S2048x64 .bf16) (A : FVec Ideal S512x2048 .f32) (acc : FVec Ideal S512x64 .f32)
    (r : Fin 512) (f : Fin 64) :
    k0_pay6 (F := Ideal) B A acc (ix2 r f) = acc (ix2 r f) + ∑ cc : Fin 2048, A (ix2 r cc) * B (ix2 cc f) := by
  unfold k0_pay6
  simp only [shapeCast_self]
  exact congrArg (acc (ix2 r f) + ·)
    (Cert.LibPlainMatmul.matmul_plain_zero_apply none (truncf .bf16 A bitsLt_bf16_f32) B r f)

/-- The second product of a trip. -/
theorem second_product_apply (B : FVec Ideal S2048x64 .bf16) (A : FVec Ideal S512x2048 .f32) (acc : FVec Ideal S512x64 .f32)
    (r : Fin 512) (f : Fin 64) :
    k0_pay7 (F := Ideal) B A acc (ix2 r f) = acc (ix2 r f) + ∑ cc : Fin 2048, A (ix2 r cc) * B (ix2 cc f) := by
  unfold k0_pay7
  simp only [shapeCast_self]
  exact congrArg (acc (ix2 r f) + ·)
    (Cert.LibPlainMatmul.matmul_plain_zero_apply none (truncf .bf16 A bitsLt_bf16_f32) B r f)

/-- The third product of a trip. -/
theorem third_product_apply (B : FVec Ideal S2048x64 .bf16) (A : FVec Ideal S512x2048 .f32) (acc : FVec Ideal S512x64 .f32)
    (r : Fin 512) (f : Fin 64) :
    k0_pay1 (F := Ideal) (k0_pay4 B) (k0_pay5 A) acc (ix2 r f)
      = acc (ix2 r f) + ∑ cc : Fin 2048, A (ix2 r cc) * B (ix2 cc f) := by
  unfold k0_pay1 k0_pay4 k0_pay5
  simp only [shapeCast_self]
  exact congrArg (acc (ix2 r f) + ·)
    (Cert.LibPlainMatmul.matmul_plain_zero_apply none (truncf .bf16 A bitsLt_bf16_f32) B r f)

/-- One trip at entry (r, f). -/
theorem step_apply (i : grid0.Coords) (o : ℕ) (hoff : k0_off1 i = ![o, 0]) (ho : o + 2048 ≤ 8192)
    (l0 l1 l2 : FVec Ideal S512x2048 .f32) (w0 w1 w2 : FVec Ideal S8192x64 .bf16) (acc : FVec Ideal S512x64 .f32)
    (r : Fin 512) (f : Fin 64) :
    step (F := Ideal) i l0 l1 l2 w0 w1 w2 acc (ix2 r f)
      = ((acc (ix2 r f) + ∑ cc : Fin 2048, l0 (ix2 r cc) * atNC w0 (o + cc.val) f.val)
          + ∑ cc : Fin 2048, l1 (ix2 r cc) * atNC w1 (o + cc.val) f.val)
          + ∑ cc : Fin 2048, l2 (ix2 r cc) * atNC w2 (o + cc.val) f.val := by
  unfold step
  rw [third_product_apply, second_product_apply, first_product_apply]
  simp only [stripe_apply i o hoff ho]

/-- One trip, in the vocabulary of the specification. If the three matrix blocks are rows 512 I + r, columns
    2048 J + c of L0, L1, L2 and the stripes start at row 2048 J of W0, W1, W2, the trip adds column block J's
    three shares to accumulator entry (r, f). -/
theorem trip_value (i : grid0.Coords) (I J : ℕ) (hJ : J < 4) (hoff : k0_off1 i = ![2048 * J, 0])
    (l0 l1 l2 : FVec Ideal S512x2048 .f32) (w0 w1 w2 : FVec Ideal S8192x64 .bf16)
    (L0 L1 L2 : SNN.Idx → EReal)
    (hl0 : ∀ (r : Fin 512) (cc : Fin 2048), l0 (ix2 r cc) = atNN L0 (512 * I + r.val) (2048 * J + cc.val))
    (hl1 : ∀ (r : Fin 512) (cc : Fin 2048), l1 (ix2 r cc) = atNN L1 (512 * I + r.val) (2048 * J + cc.val))
    (hl2 : ∀ (r : Fin 512) (cc : Fin 2048), l2 (ix2 r cc) = atNN L2 (512 * I + r.val) (2048 * J + cc.val))
    (acc : FVec Ideal S512x64 .f32) (r : Fin 512) (f : Fin 64) :
    step (F := Ideal) i l0 l1 l2 w0 w1 w2 acc (ix2 r f)
      = acc (ix2 r f) + blockTerm L0 L1 L2 w0 w1 w2 (512 * I + r.val) f.val J := by
  rw [step_apply i (2048 * J) hoff (by omega)]
  simp only [hl0, hl1, hl2]
  unfold blockTerm blockSum prodAt
  rw [Finset.sum_range (fun cc => atNN L0 (512 * I + r.val) (2048 * J + cc) * atNC w0 (2048 * J + cc) f.val),
    Finset.sum_range (fun cc => atNN L1 (512 * I + r.val) (2048 * J + cc) * atNC w1 (2048 * J + cc) f.val),
    Finset.sum_range (fun cc => atNN L2 (512 * I + r.val) (2048 * J + cc) * atNC w2 (2048 * J + cc) f.val)]
  simp only [add_assoc]

/-- The zero block the first column block starts from. -/
theorem zero_block_apply (y : S512x64.Idx) : k0_pay3 (F := Ideal) y = 0 := by
  unfold k0_pay3
  simp only [shapeCast_self]
  exact Ideal.ofBits_zero_f32

/-- The epilogue at entry (r, f): max(accumulator + bias, 0). -/
theorem finish_apply (acc : FVec Ideal S512x64 .f32) (b : FVec Ideal S1x64 .f32) (r : Fin 512) (f : Fin 64) :
    finish (F := Ideal) acc b (ix2 r f) = max (acc (ix2 r f) + b (ix2 (0 : Fin 1) f)) 0 := by
  unfold finish k0_pay2
  simp only [shapeCast_self]
  show max (acc (ix2 r f) + broadcastTo S512x64 b broadcasts_S1x64_S512x64 (ix2 r f)) (Ideal.ofBits .f32 0x00000000#32) = _
  rw [Ideal.ofBits_zero_f32]
  exact congrArg (fun z => max (acc (ix2 r f) + z) 0) (broadcastTo_1b_ab_apply b broadcasts_S1x64_S512x64 r f)

end Cert.KernelIdeal.ConvBody

end
-- ==== Proof.ConvAccum.lean ====
/-
  The accumulator across the grid, and the block a row block's last point writes back.

  Point t of the 16 x 4 grid is row block t / 4, column block t % 4. By induction on the point, after point t the
  accumulator's entry (r, f) is the sum over the column blocks 0 .. t % 4 of their three shares of entry
  (512 (t / 4) + r, f): the first column block starts from the zero block, every later one adds its shares to what
  the point before left. At t % 4 = 3 all four column blocks are in, and the block written back is the layer's
  entry: max(sum + bias, 0).
-/
import proofs.«165759_j17918603559109_2_alg».proof.Proof.ConvStepValue

noncomputable section

open Idealize.ShloMosaic Idealize.ShloMosaic.TcCoe Idealize.SL.Sem

namespace Cert.KernelIdeal.ConvBody

open Cert.KernelIdeal Cert.KernelIdeal.Gen Idealize.ShloMosaic.ValueIdx Cert.ConvBN

variable (m : (ℓ : Loc nD τ sig) → Buf (Elt Ideal) ℓ)

/-- The stripe the body slices at point t starts at row 2048 (t % 4). -/
theorem stripe_offset : ∀ t : Fin cfg0.N, k0_off1 (grid0.coords t) (0 : Fin 2) = 2048 * (t.val % 4)
    ∧ k0_off1 (grid0.coords t) (1 : Fin 2) = 0 :=
  (by decide +kernel : ∀ t : Fin grid0.N, _)

theorem stripe_offsets (t : Fin cfg0.N) : k0_off1 (grid0.coords t) = ![2048 * (t.val % 4), 0] :=
  funext fun a => by
    match a with
    | ⟨0, _⟩ => exact (stripe_offset t).1
    | ⟨1, _⟩ => exact (stripe_offset t).2

/-- The three matrix windows sit at block (t / 4, t % 4). -/
theorem matrix_index : ∀ t : Fin cfg0.N, win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4 :=
  (by decide +kernel : ∀ t : Fin grid0.N, _)

/-- The resident windows (projected features, bias) sit at block (0, 0); the output at block (t / 4, 0). -/
theorem whole_index : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 4 ∧ win0_7.index t (1 : Fin 2) = 0 :=
  (by decide +kernel : ∀ t : Fin grid0.N, _)

/-- Matrix window 0's block at point t: rows 512 (t / 4) + r, columns 2048 (t % 4) + c of its array. -/
theorem matrix_block0 (c : Dev nD) (t : Fin cfg0.N) (r : Fin 512) (cc : Fin 2048) :
    (iblk m c 0 t : FVec Ideal S512x2048 .f32) (ix2 r cc)
      = atNN (V m c main_arg1) (512 * (t.val / 4) + r.val) (2048 * (t.val % 4) + cc.val) := by
  have hN : t.val < 64 := lt_of_lt_of_eq t.isLt (show cfg0.N = 64 from N_0)
  have hr := r.isLt
  have hcc := cc.isLt
  have e0 : win0_0.index t (0 : Fin 2) = t.val / 4 := (matrix_index t).1
  have e1 : win0_0.index t (1 : Fin 2) = t.val % 4 := (matrix_index t).2.1
  unfold atNN
  rw [dif_pos ⟨by omega, by omega⟩]
  unfold iblk
  rw [View.read_apply]
  show V m c main_arg1 (((cfg0.win 0).blk t).view.emb (ix2 r cc)) = _
  refine congrArg (V m c main_arg1) (funext fun a => Fin.ext ?_)
  match a with
  | ⟨0, _⟩ => show win0_0.index t (0 : Fin 2) * 512 + 1 * r.val = 512 * (t.val / 4) + r.val; omega
  | ⟨1, _⟩ => show win0_0.index t (1 : Fin 2) * 2048 + 1 * cc.val = 2048 * (t.val % 4) + cc.val; omega

/-- Matrix window 1's block at point t: rows 512 (t / 4) + r, columns 2048 (t % 4) + c of its array. -/
theorem matrix_block1 (c : Dev nD) (t : Fin cfg0.N) (r : Fin 512) (cc : Fin 2048) :
    (iblk m c 1 t : FVec Ideal S512x2048 .f32) (ix2 r cc)
      = atNN (V m c main_arg2) (512 * (t.val / 4) + r.val) (2048 * (t.val % 4) + cc.val) := by
  have hN : t.val < 64 := lt_of_lt_of_eq t.isLt (show cfg0.N = 64 from N_0)
  have hr := r.isLt
  have hcc := cc.isLt
  have e0 : win0_1.index t (0 : Fin 2) = t.val / 4 := (matrix_index t).2.2.1
  have e1 : win0_1.index t (1 : Fin 2) = t.val % 4 := (matrix_index t).2.2.2.1
  unfold atNN
  rw [dif_pos ⟨by omega, by omega⟩]
  unfold iblk
  rw [View.read_apply]
  show V m c main_arg2 (((cfg0.win 1).blk t).view.emb (ix2 r cc)) = _
  refine congrArg (V m c main_arg2) (funext fun a => Fin.ext ?_)
  match a with
  | ⟨0, _⟩ => show win0_1.index t (0 : Fin 2) * 512 + 1 * r.val = 512 * (t.val / 4) + r.val; omega
  | ⟨1, _⟩ => show win0_1.index t (1 : Fin 2) * 2048 + 1 * cc.val = 2048 * (t.val % 4) + cc.val; omega

/-- Matrix window 2's block at point t: rows 512 (t / 4) + r, columns 2048 (t % 4) + c of its array. -/
theorem matrix_block2 (c : Dev nD) (t : Fin cfg0.N) (r : Fin 512) (cc : Fin 2048) :
    (iblk m c 2 t : FVec Ideal S512x2048 .f32) (ix2 r cc)
      = atNN (V m c main_arg3) (512 * (t.val / 4) + r.val) (2048 * (t.val % 4) + cc.val) := by
  have hN : t.val < 64 := lt_of_lt_of_eq t.isLt (show cfg0.N = 64 from N_0)
  have hr := r.isLt
  have hcc := cc.isLt
  have e0 : win0_2.index t (0 : Fin 2) = t.val / 4 := (matrix_index t).2.2.2.2.1
  have e1 : win0_2.index t (1 : Fin 2) = t.val % 4 := (matrix_index t).2.2.2.2.2
  unfold atNN
  rw [dif_pos ⟨by omega, by omega⟩]
  unfold iblk
  rw [View.read_apply]
  show V m c main_arg3 (((cfg0.win 2).blk t).view.emb (ix2 r cc)) = _
  refine congrArg (V m c main_arg3) (funext fun a => Fin.ext ?_)
  match a with
  | ⟨0, _⟩ => show win0_2.index t (0 : Fin 2) * 512 + 1 * r.val = 512 * (t.val / 4) + r.val; omega
  | ⟨1, _⟩ => show win0_2.index t (1 : Fin 2) * 2048 + 1 * cc.val = 2048 * (t.val % 4) + cc.val; omega

/-- Window 3 is its whole array at every point. -/
theorem whole_block3 (c : Dev nD) (t : Fin cfg0.N) : (iblk m c 3 t : FVec Ideal S8192x64 .bf16) = V m c main_v1 := by
  have e0 : win0_3.index t (0 : Fin 2) = 0 := (whole_index t).1
  have e1 : win0_3.index t (1 : Fin 2) = 0 := (whole_index t).2.1
  funext y
  unfold iblk
  rw [View.read_apply]
  show V m c main_v1 (((cfg0.win 3).blk t).view.emb y) = V m c main_v1 y
  refine congrArg (V m c main_v1) (funext fun a => Fin.ext ?_)
  match a with
  | ⟨0, _⟩ => show win0_3.index t (0 : Fin 2) * 8192 + 1 * (y 0).val = (y 0).val; omega
  | ⟨1, _⟩ => show win0_3.index t (1 : Fin 2) * 64 + 1 * (y 1).val = (y 1).val; omega

/-- Window 4 is its whole array at every point. -/
theorem whole_block4 (c : Dev nD) (t : Fin cfg0.N) : (iblk m c 4 t : FVec Ideal S8192x64 .bf16) = V m c main_v3 := by
  have e0 : win0_4.index t (0 : Fin 2) = 0 := (whole_index t).2.2.1
  have e1 : win0_4.index t (1 : Fin 2) = 0 := (whole_index t).2.2.2.1
  funext y
  unfold iblk
  rw [View.read_apply]
  show V m c main_v3 (((cfg0.win 4).blk t).view.emb y) = V m c main_v3 y
  refine congrArg (V m c main_v3) (funext fun a => Fin.ext ?_)
  match a with
  | ⟨0, _⟩ => show win0_4.index t (0 : Fin 2) * 8192 + 1 * (y 0).val = (y 0).val; omega
  | ⟨1, _⟩ => show win0_4.index t (1 : Fin 2) * 64 + 1 * (y 1).val = (y 1).val; omega

/-- Window 5 is its whole array at every point. -/
theorem whole_block5 (c : Dev nD) (t : Fin cfg0.N) : (iblk m c 5 t : FVec Ideal S8192x64 .bf16) = V m c main_v5 := by
  have e0 : win0_5.index t (0 : Fin 2) = 0 := (whole_index t).2.2.2.2.1
  have e1 : win0_5.index t (1 : Fin 2) = 0 := (whole_index t).2.2.2.2.2.1
  funext y
  unfold iblk
  rw [View.read_apply]
  show V m c main_v5 (((cfg0.win 5).blk t).view.emb y) = V m c main_v5 y
  refine congrArg (V m c main_v5) (funext fun a => Fin.ext ?_)
  match a with
  | ⟨0, _⟩ => show win0_5.index t (0 : Fin 2) * 8192 + 1 * (y 0).val = (y 0).val; omega
  | ⟨1, _⟩ => show win0_5.index t (1 : Fin 2) * 64 + 1 * (y 1).val = (y 1).val; omega

/-- The bias window is its whole one-row array at every point. -/
theorem bias_block (c : Dev nD) (t : Fin cfg0.N) : (iblk m c 6 t : FVec Ideal S1x64 .f32) = V m c main_v6 := by
  have e0 : win0_6.index t (0 : Fin 2) = 0 := (whole_index t).2.2.2.2.2.2.1
  have e1 : win0_6.index t (1 : Fin 2) = 0 := (whole_index t).2.2.2.2.2.2.2.1
  funext y
  unfold iblk
  rw [View.read_apply]
  show V m c main_v6 (((cfg0.win 6).blk t).view.emb y) = V m c main_v6 y
  refine congrArg (V m c main_v6) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- One trip at point t adds column block t % 4's three shares of entry (512 (t / 4) + r, f). -/
theorem trip_at (c : Dev nD) (t : Fin cfg0.N) (acc : FVec Ideal S512x64 .f32) (r : Fin 512) (f : Fin 64) :
    step (F := Ideal) (grid0.coords t) (iblk m c 0 t) (iblk m c 1 t) (iblk m c 2 t) (iblk m c 3 t) (iblk m c 4 t)
        (iblk m c 5 t) acc (ix2 r f)
      = acc (ix2 r f) + blockTerm (V m c main_arg1) (V m c main_arg2) (V m c main_arg3) (V m c main_v1) (V m c main_v3) (V m c main_v5) (512 * (t.val / 4) + r.val) f.val (t.val % 4) := by
  have hN : t.val < 64 := lt_of_lt_of_eq t.isLt (show cfg0.N = 64 from N_0)
  rw [whole_block3 m c t, whole_block4 m c t, whole_block5 m c t]
  exact trip_value (grid0.coords t) (t.val / 4) (t.val % 4) (by omega) (stripe_offsets t)
    (iblk m c 0 t) (iblk m c 1 t) (iblk m c 2 t) (V m c main_v1) (V m c main_v3) (V m c main_v5)
    (V m c main_arg1) (V m c main_arg2) (V m c main_arg3)
    (matrix_block0 m c t) (matrix_block1 m c t) (matrix_block2 m c t) acc r f

/-- THE INVARIANT. After point n the accumulator's entry (r, f) is the sum, over the column blocks 0 .. n % 4, of
    their three shares of entry (512 (n / 4) + r, f). -/
theorem accumulator_value (c : Dev nD) : ∀ (n : ℕ) (h : n < cfg0.N) (r : Fin 512) (f : Fin 64),
    (outsAt0 m c n h).2 (ix2 r f)
      = ∑ j ∈ Finset.range (n % 4 + 1), blockTerm (V m c main_arg1) (V m c main_arg2) (V m c main_arg3) (V m c main_v1) (V m c main_v3) (V m c main_v5) (512 * (n / 4) + r.val) f.val j
  | 0, h, r, f => by
    rw [outsAt0_A m c ⟨0, h⟩ rfl (by show ¬(0 : ℕ) % 4 = 3; decide)]
    dsimp only
    rw [scratch_first]
    refine (trip_at m c ⟨0, h⟩ _ r f).trans ?_
    rw [zero_block_apply, zero_add]
    show blockTerm (V m c main_arg1) (V m c main_arg2) (V m c main_arg3) (V m c main_v1) (V m c main_v3) (V m c main_v5) (512 * (0 / 4) + r.val) f.val (0 % 4) = _
    rw [Finset.sum_range_one]
  | n + 1, h, r, f => by
    have hN : n + 1 < 64 := lt_of_lt_of_eq h (show cfg0.N = 64 from N_0)
    by_cases h0 : (n + 1) % 4 = 0
    · have h1 : ¬(n + 1) % 4 = 3 := by omega
      rw [outsAt0_A m c ⟨n + 1, h⟩ h0 h1]
      dsimp only
      rw [scratch_first]
      refine (trip_at m c ⟨n + 1, h⟩ _ r f).trans ?_
      rw [zero_block_apply, zero_add]
      show blockTerm (V m c main_arg1) (V m c main_arg2) (V m c main_arg3) (V m c main_v1) (V m c main_v3) (V m c main_v5) (512 * ((n + 1) / 4) + r.val) f.val ((n + 1) % 4) = _
      rw [h0, Finset.sum_range_one]
    · have ih := accumulator_value c n (Nat.lt_of_succ_lt h) r f
      have e1 : (n + 1) / 4 = n / 4 := by omega
      have e2 : (n + 1) % 4 = n % 4 + 1 := by omega
      by_cases h1 : (n + 1) % 4 = 3
      · rw [outsAt0_C m c ⟨n + 1, h⟩ h0 h1]
        dsimp only
        rw [scratch_last]
        refine (trip_at m c ⟨n + 1, h⟩ _ r f).trans ?_
        show (outsAt0 m c n _).2 (ix2 r f) + blockTerm (V m c main_arg1) (V m c main_arg2) (V m c main_arg3) (V m c main_v1) (V m c main_v3) (V m c main_v5) (512 * ((n + 1) / 4) + r.val) f.val ((n + 1) % 4) = _
        rw [ih, e1, e2, Finset.sum_range_succ _ (n % 4 + 1)]
      · rw [outsAt0_B m c ⟨n + 1, h⟩ h0 h1]
        dsimp only
        rw [scratch_middle]
        refine (trip_at m c ⟨n + 1, h⟩ _ r f).trans ?_
        show (outsAt0 m c n _).2 (ix2 r f) + blockTerm (V m c main_arg1) (V m c main_arg2) (V m c main_arg3) (V m c main_v1) (V m c main_v3) (V m c main_v5) (512 * ((n + 1) / 4) + r.val) f.val ((n + 1) % 4) = _
        rw [ih, e1, e2, Finset.sum_range_succ _ (n % 4 + 1)]

/-- THE WRITTEN-BACK BLOCK. At the last column block (t % 4 = 3) the output block's entry (r, f) is
    max(all four column blocks' shares of entry (512 (t / 4) + r, f) + bias f, 0). -/
theorem output_block_value (c : Dev nD) (t : Fin cfg0.N) (h3 : t.val % 4 = 3) (r : Fin 512) (f : Fin 64) :
    (outsAt0 m c t.val t.isLt).1 (ix2 r f)
      = max ((∑ j ∈ Finset.range 4, blockTerm (V m c main_arg1) (V m c main_arg2) (V m c main_arg3) (V m c main_v1) (V m c main_v3) (V m c main_v5) (512 * (t.val / 4) + r.val) f.val j)
          + V m c main_v6 (ix2 (0 : Fin 1) f)) 0 := by
  have h0 : ¬t.val % 4 = 0 := by omega
  have hacc := accumulator_value m c t.val t.isLt r f
  rw [outsAt0_C m c t h0 h3] at hacc ⊢
  dsimp only at hacc ⊢
  rw [scratch_last] at hacc
  rw [out_last, finish_apply, bias_block m c t, hacc, h3]

end Cert.KernelIdeal.ConvBody

end
-- ==== Proof.ConvArray.lean ====
/-
  The layer's array after the region.

  Each row block's last grid point writes back one 512 x 64 block; block I of the output array is rows
  [512 I, 512 I + 512). Every written block is the restriction of ONE function of the array index — entry (R, f) is
  max(the three propagations' entry (R, f) + bias f, 0), by column blocks — and the sixteen blocks tile the array, so
  the array ends holding that function.
-/
import proofs.«165759_j17918603559109_2_alg».proof.Proof.ConvAccum
import Idealize.ShloMosaic.Lib.ValueLayout

noncomputable section

open Idealize.ShloMosaic Idealize.ShloMosaic.TcCoe Idealize.SL.Sem

open Idealize.ShloMosaic.Pipeline (Dat)

namespace Cert.KernelIdeal.ConvBody

open Cert.KernelIdeal Cert.KernelIdeal.Gen Idealize.ShloMosaic.ValueIdx Cert.ConvBN

variable (m : (ℓ : Loc nD τ sig) → Buf (Elt Ideal) ℓ)

/-- The bias operand of the region is the bias vector with a leading unit axis. -/
theorem bias_row (c : Dev nD) :
    (V m c main_v6 : FVec Ideal S1x64 .f32)
      = shapeCast S1x64 (m ((c : Thread nD τ).loc main_arg7)) shapeCasts_S64_S1x64 := by
  show StableHlo.after hostOps0 (fun b => m (c, b)) (Proc.devRef .tc main_v6) = _
  after_results
  rfl

/-- Its entry (0, f) is the bias at f. -/
theorem bias_entry (c : Dev nD) (f : Fin 64) :
    V m c main_v6 (ix2 (0 : Fin 1) f) = atC (m ((c : Thread nD τ).loc main_arg7)) f.val := by
  rw [atC_ix1]
  exact (congrFun (bias_row m c) (ix2 (0 : Fin 1) f)).trans
    (shapeCast_a_1a_apply (m ((c : Thread nD τ).loc main_arg7)) shapeCasts_S64_S1x64 0 f)

/-- THE LAYER before batch normalisation, as one function of the array index: of the three propagation matrices as
    launched, the projected features as the region finds them, and the bias as launched. -/
def layer (c : Dev nD) : Buf (Elt Ideal) ((c : Thread nD τ).loc main_v7) :=
  convOut (m ((c : Thread nD τ).loc main_arg1)) (m ((c : Thread nD τ).loc main_arg2)) (m ((c : Thread nD τ).loc main_arg3))
    (V m c main_v1) (V m c main_v3) (V m c main_v5) (m ((c : Thread nD τ).loc main_arg7))

/-- WHAT A ROW BLOCK'S LAST POINT WRITES BACK is its block of the layer. -/
theorem flushed_eq (c : Dev nD) (t : Fin cfg0.N) (hf : (cfg0.win 7).flush t = true) :
    (dats m 0 c).flushed 7 t = ((cfg0.win 7).blk t).view.read (Elt Ideal) (layer m c) := by
  have h3 := (flush0_7 t).mp hf
  have hN : t.val < 64 := lt_of_lt_of_eq t.isLt (show cfg0.N = 64 from N_0)
  have e0 : win0_7.index t (0 : Fin 2) = t.val / 4 := (whole_index t).2.2.2.2.2.2.2.2.1
  have e1 : win0_7.index t (1 : Fin 2) = 0 := (whole_index t).2.2.2.2.2.2.2.2.2
  show (cfg0.win 7).cut (grid0.coords t) ((dats m 0 c).after 7 t) = _
  rw [after0_7]
  show (fun y : S512x64.Idx => (outsAt0 m c t.val t.isLt).1 y)
    = (fun y : S512x64.Idx => layer m c (((cfg0.win 7).blk t).view.emb y))
  funext y
  obtain ⟨r, f, rfl⟩ : ∃ (r : Fin 512) (f : Fin 64), y = ix2 r f := ⟨y 0, y 1, eq_ix2 y⟩
  have hr := r.isLt
  rw [output_block_value m c t h3 r f, V_main_arg1 m c, V_main_arg2 m c, V_main_arg3 m c, bias_entry m c f]
  have hemb : ((cfg0.win 7).blk t).view.emb (ix2 r f)
      = ix2 (⟨512 * (t.val / 4) + r.val, by omega⟩ : Fin 8192) (⟨f.val, f.isLt⟩ : Fin 64) :=
    funext fun a => Fin.ext (by
      match a with
      | ⟨0, _⟩ => show win0_7.index t (0 : Fin 2) * 512 + 1 * r.val = 512 * (t.val / 4) + r.val; omega
      | ⟨1, _⟩ => show win0_7.index t (1 : Fin 2) * 64 + 1 * f.val = f.val; omega)
  rw [hemb]
  rfl

/-- An index of the output array is in point t's block iff each coordinate is in the block's range on its axis. -/
theorem mem_output_block (c : Dev nD) (t : Fin cfg0.N) (i : S8192x64.Idx) :
    i ∈ ((cfg0.win 7).blk t).view.set ↔ ∀ a : Fin 2, win0_7.index t a * S512x64.size a ≤ (i a).val
      ∧ (i a).val < win0_7.index t a * S512x64.size a + S512x64.size a := by
  show i ∈ ((View.whole main_v7).slice (win0_7.rect t)).set ↔ _
  rw [View.set_slice_whole, Rect.mem_set_unit]
  exact Iff.rfl

/-- Row R of the output is in the block written back at point 4 (R / 512) + 3. -/
theorem output_covered (c : Dev nD) (i : S8192x64.Idx) :
    ∃ t : Fin cfg0.N, (cfg0.win 7).flush t = true ∧ i ∈ ((cfg0.win 7).blk t).view.set := by
  have hi0 : (i 0).val < 8192 := (i 0).isLt
  have hi1 : (i 1).val < 64 := (i 1).isLt
  have hN : cfg0.N = 64 := N_0
  have ht : 4 * ((i 0).val / 512) + 3 < cfg0.N := by rw [hN]; omega
  refine ⟨⟨4 * ((i 0).val / 512) + 3, ht⟩, (flush0_7 _).mpr (by show (4 * ((i 0).val / 512) + 3) % 4 = 3; omega), ?_⟩
  have e0 : win0_7.index ⟨4 * ((i 0).val / 512) + 3, ht⟩ (0 : Fin 2) = (4 * ((i 0).val / 512) + 3) / 4 :=
    (whole_index ⟨4 * ((i 0).val / 512) + 3, ht⟩).2.2.2.2.2.2.2.2.1
  have e1 : win0_7.index ⟨4 * ((i 0).val / 512) + 3, ht⟩ (1 : Fin 2) = 0 :=
    (whole_index ⟨4 * ((i 0).val / 512) + 3, ht⟩).2.2.2.2.2.2.2.2.2
  rw [mem_output_block c]
  intro a
  match a with
  | ⟨0, _⟩ =>
    show win0_7.index ⟨4 * ((i 0).val / 512) + 3, ht⟩ (0 : Fin 2) * 512 ≤ (i 0).val
      ∧ (i 0).val < win0_7.index ⟨4 * ((i 0).val / 512) + 3, ht⟩ (0 : Fin 2) * 512 + 512
    rw [e0]; omega
  | ⟨1, _⟩ =>
    show win0_7.index ⟨4 * ((i 0).val / 512) + 3, ht⟩ (1 : Fin 2) * 64 ≤ (i 1).val
      ∧ (i 1).val < win0_7.index ⟨4 * ((i 0).val / 512) + 3, ht⟩ (1 : Fin 2) * 64 + 64
    rw [e1]; omega

/-- THE ARRAY after the region: the layer. -/
theorem layer_array (c : Dev nD) : (dats m 0 c).arrAt 7 cfg0.N = layer m c :=
  (dats m 0 c).arrAt_eq_of_cover 7 (layer m c) (fun t hf => flushed_eq m c t hf) (fun i => output_covered c i)

end Cert.KernelIdeal.ConvBody

end
-- ==== Proof.BatchNorm.lean ====
/-
  Batch normalisation over the node axis (training mode, biased variance), as ONE function.

  For an 8192 x 64 array o, a scale g and a shift b (length 64):  mean_f = (sum_R o[R,f]) / 8192,
  var_f = (sum_R (o[R,f] - mean_f)^2) / 8192,  result[R,f] = (o[R,f] - mean_f) * rsqrt(var_f + 1e-5) * g_f + b_f.
  Both programs apply exactly these host operations, in this order, to their layer array; the certificate compares
  the arrays going in and never opens this function. The side conditions its operations carry (which axis a sum
  drops, which axes a broadcast fills) are taken as hypotheses, so that either program can supply its own.
-/
import Idealize.ShloMosaic.PureOps.Ideal
import Idealize.ShloMosaic.Lib.ValueIdx
import proofs.«165759_j17918603559109_2_alg».proof.Proof.ConvSpec

noncomputable section

open Idealize.ShloMosaic Idealize.ShloMosaic.TcCoe Idealize.SL.Sem

namespace Cert.ConvBN

variable {F : FTy → Type} [FloatOps F]

abbrev S0 : Shape := ⟨0, ![]⟩
abbrev S1C : Shape := ⟨2, ![1, 64]⟩

section Tail

variable (hr : SNC.ReducesTo [0] SC) (h0 : 0 < S0.numel)
  (b0 : S0.BroadcastsInDim SC (![] : Fin 0 → Fin SC.rank))
  (b1 : SC.BroadcastsInDim S1C (![1] : Fin 1 → Fin S1C.rank))
  (b2 : S1C.BroadcastsInDim SNC (![0, 1] : Fin 2 → Fin SNC.rank))

/-- A length-64 vector laid along every row of an 8192 x 64 array. -/
def alongRows (v : FVec F SC .f32) : FVec F SNC .f32 :=
  broadcastInDim SNC ![0, 1] b2 (broadcastInDim S1C ![1] b1 v)

/-- The column means. -/
def colMean (o : FVec F SNC .f32) : FVec F SC .f32 :=
  Host.divf (Host.reduceAdd o (constant S0 .f32 0x00000000#32) hr h0)
    (broadcastInDim SC ![] b0 (constant S0 .f32 0x46000000#32))

/-- The array with its column means taken off. -/
def centered (o : FVec F SNC .f32) : FVec F SNC .f32 :=
  subf o (alongRows b1 b2 (colMean hr h0 b0 o))

/-- The column variances (biased). -/
def colVar (o : FVec F SNC .f32) : FVec F SC .f32 :=
  Host.divf (Host.reduceAdd (mulf (centered hr h0 b0 b1 b2 o) (centered hr h0 b0 b1 b2 o))
      (constant S0 .f32 0x00000000#32) hr h0)
    (broadcastInDim SC ![] b0 (constant S0 .f32 0x46000000#32))

/-- Batch normalisation of o with scale g and shift b. -/
def batchNorm (o : FVec F SNC .f32) (g b : FVec F SC .f32) : FVec F SNC .f32 :=
  addf (mulf (mulf (centered hr h0 b0 b1 b2 o)
      (alongRows b1 b2 (Host.rsqrt (addf (colVar hr h0 b0 b1 b2 o)
        (broadcastInDim SC ![] b0 (constant S0 .f32 0x3727C5AC#32))))))
      (alongRows b1 b2 g))
    (alongRows b1 b2 b)

end Tail

end Cert.ConvBN

end
-- ==== Proof.KernelRun.lean ====
/-
  The kernel's program, read: what it returns.

  After the region the host normalises the layer array over the node axis; so the program returns the batch
  normalisation of the layer, and leaves its arguments as launched. The projected features the region finds are the
  host's products X W0, X W1, X W2 (their rounding to bfloat16 is the identity on the extended reals).
-/
import proofs.«165759_j17918603559109_2_alg».proof.Proof.ConvArray
import proofs.«165759_j17918603559109_2_alg».proof.Proof.BatchNorm
import Idealize.ShloMosaic.Lib.StableHlo.Run

noncomputable section

open Idealize.ShloMosaic Idealize.ShloMosaic.TcCoe Idealize.SL.Sem

open Idealize.ShloMosaic.Pipeline (Dat)

namespace Cert.KernelIdeal.ConvBody

open Cert.KernelIdeal Cert.KernelIdeal.Gen Idealize.ShloMosaic.ValueIdx Cert.ConvBN

variable (m : (ℓ : Loc nD τ sig) → Buf (Elt Ideal) ℓ) (ρ : Dev nD → PrngReg)

/-- What the kernel's program returns: the batch normalisation of the layer, with the scale and shift as launched. -/
def result (c : Dev nD) : Buf (Elt Ideal) ((c : Thread nD τ).loc main_v32) :=
  batchNorm (F := Ideal) reducesTo_S8192x64_S64_d0 h_S_ bcast_S_S64 bcast_S64_S1x64_1 bcast_S1x64_S8192x64_0_1
    (layer m c) (m ((c : Thread nD τ).loc main_arg8)) (m ((c : Thread nD τ).loc main_arg9))

/-- The host operations after the region, applied to the arrays the region leaves, give that. -/
theorem tail_value (c : Dev nD) :
    Pipeline.afterTail₀ cfgs (dats m) 0 (V0 m) [hostOps1] c main_v32 = result m c := by
  unfold Pipeline.afterTail₀
  simp only [List.flatten_cons, List.flatten_nil, List.append_nil]
  have e7 : Pipeline.withArrays (cfgs 0).spec c (V0 m c) (fun w => (dats m 0 c).arrAt w (cfgs 0).N) (Proc.devRef .tc main_v7)
      = layer m c := (Pipeline.withArrays_arr spec0 launch0.win.arr_inj c _ _ 7).trans (layer_array m c)
  have e8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans (V_main_arg8 m c)
  have e9 : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans (V_main_arg9 m c)
  generalize Pipeline.withArrays (cfgs 0).spec c (V0 m c) (fun w => (dats m 0 c).arrAt w (cfgs 0).N) = W at e7 e8 e9 ⊢
  after_results_simp
  rw [e7, e8, e9]
  unfold result batchNorm centered colVar colMean alongRows
  rfl

/-- The projected features the region finds are the host's products of the node features with the three weights. -/
theorem features0 (c : Dev nD) : (V m c main_v1 : SNC.Idx → EReal)
    = Host.dotGeneral (F := Ideal) (φ₁ := .f32) (φ₂ := .f32) dot_S8192x64_S64x64_S8192x64_1_0_0_1_n_n none
        (m ((c : Thread nD τ).loc main_arg0)) (m ((c : Thread nD τ).loc main_arg4)) := by
  show StableHlo.after hostOps0 (fun b => m (c, b)) (Proc.devRef .tc main_v1) = _
  after_results
  rfl
theorem features1 (c : Dev nD) : (V m c main_v3 : SNC.Idx → EReal)
    = Host.dotGeneral (F := Ideal) (φ₁ := .f32) (φ₂ := .f32) dot_S8192x64_S64x64_S8192x64_1_0_0_1_n_n none
        (m ((c : Thread nD τ).loc main_arg0)) (m ((c : Thread nD τ).loc main_arg5)) := by
  show StableHlo.after hostOps0 (fun b => m (c, b)) (Proc.devRef .tc main_v3) = _
  after_results
  rfl
theorem features2 (c : Dev nD) : (V m c main_v5 : SNC.Idx → EReal)
    = Host.dotGeneral (F := Ideal) (φ₁ := .f32) (φ₂ := .f32) dot_S8192x64_S64x64_S8192x64_1_0_0_1_n_n none
        (m ((c : Thread nD τ).loc main_arg0)) (m ((c : Thread nD τ).loc main_arg6)) := by
  show StableHlo.after hostOps0 (fun b => m (c, b)) (Proc.devRef .tc main_v5) = _
  after_results
  rfl

/-- THE RUN, read: every weakly fair execution terminates with the result buffer at `result` and the arguments as
    launched. -/
theorem run : θ_run defs (onTc (τ := τ) (main (F := Ideal))) ⟨m, fun _ => 0, ρ⟩ fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v32 (Pipeline.mem_restRefs_of main_v32 (by decide) (by decide))).trans (tail_value m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.ConvBody

end
-- ==== Proof.RefValue.lean ====
/-
  The reference, read: its result is the batch normalisation of its layer array, and that array is the layer.

  The reference forms each propagation whole — entry (R, f) of L_k (X W_k) is the sum over all 8192 positions — adds
  the three, adds the bias and takes max with 0. By the block law of the specification the three whole row sums added
  are the four column blocks' shares added block by block: the reference's layer array is the same function of the
  same arrays as the kernel's.
-/
import proofs.«165759_j17918603559109_2_alg».proof.Proof.Gen.ReferenceIdeal.Read
import proofs.«165759_j17918603559109_2_alg».proof.Proof.BatchNorm
import Idealize.ShloMosaic.Lib.ValueIdx
import Idealize.ShloMosaic.PureOps.Ideal.Laws

noncomputable section

open Idealize.ShloMosaic Idealize.ShloMosaic.TcCoe Idealize.SL.Sem

namespace Cert.ReferenceIdeal.ConvRef

open Cert.ReferenceIdeal Cert.ReferenceIdeal.Gen Cert.ReferenceIdeal.Read Idealize.ShloMosaic.ValueIdx Cert.ConvBN

/-- The reference's result is the batch normalisation of its layer array (the same host operations, in order). -/
theorem result_is_batchNorm (x0 : (⟨S8192x64, .f32⟩ : BufTy).Contents (Elt Ideal)) (x1 x2 x3 : (⟨S8192x8192, .f32⟩ : BufTy).Contents (Elt Ideal)) (x4 x5 x6 : (⟨S64x64, .f32⟩ : BufTy).Contents (Elt Ideal)) (x7 : (⟨S64, .f32⟩ : BufTy).Contents (Elt Ideal))
    (x8 x9 : (⟨S64, .f32⟩ : BufTy).Contents (Elt Ideal)) :
    val_main_v36 (F := Ideal) x0 x1 x2 x3 x4 x5 x6 x7 x8 x9
      = batchNorm (F := Ideal) reducesTo_S8192x64_S64_d0 h_S_ bcast_S_S64 bcast_S64_S1x64_1 bcast_S1x64_S8192x64_0_1
          (val_main_v11 (F := Ideal) x0 x1 x2 x3 x4 x5 x6 x7) x8 x9 := by
  unfold val_main_v36 val_main_v35 val_main_v34 val_main_v33 val_main_v32 val_main_v31 val_main_v30 val_main_v29
    val_main_v28 val_main_v27 val_main_v26 val_main_v25 val_main_cst_3 val_main_v24 val_main_v23 val_main_v22
    val_main_v21 val_main_v20 val_main_cst_2 val_main_v19 val_main_cst_1 val_main_v18 val_main_v17 val_main_v16
    val_main_v15 val_main_v14 val_main_v13 val_main_cst_0 val_main_v12 val_main_cst
    batchNorm centered colVar colMean alongRows
  rfl

/-- The reference's layer array is the layer of its arguments: the three whole propagations added, plus the bias,
    against 0 — regrouped by column blocks. -/
theorem layer_is_convOut (x0 : (⟨S8192x64, .f32⟩ : BufTy).Contents (Elt Ideal)) (x1 x2 x3 : (⟨S8192x8192, .f32⟩ : BufTy).Contents (Elt Ideal)) (x4 x5 x6 : (⟨S64x64, .f32⟩ : BufTy).Contents (Elt Ideal)) (x7 : (⟨S64, .f32⟩ : BufTy).Contents (Elt Ideal)) :
    val_main_v11 (F := Ideal) x0 x1 x2 x3 x4 x5 x6 x7
      = convOut x1 x2 x3 (val_main_v0 (F := Ideal) x0 x4) (val_main_v2 (F := Ideal) x0 x5)
          (val_main_v5 (F := Ideal) x0 x6) x7 := by
  funext i
  obtain ⟨R, f, rfl⟩ : ∃ (R : Fin 8192) (f : Fin 64), i = ix2 R f := ⟨i 0, i 1, eq_ix2 i⟩
  have hl1 : ∀ k : Fin 8192, lidx_main_v1 (ix2 R f) k = ix2 R k := fun k => funext fun a => by
    match a with | ⟨0, _⟩ => rfl | ⟨1, _⟩ => rfl
  have hl3 : ∀ k : Fin 8192, lidx_main_v3 (ix2 R f) k = ix2 R k := fun k => funext fun a => by
    match a with | ⟨0, _⟩ => rfl | ⟨1, _⟩ => rfl
  have hl6 : ∀ k : Fin 8192, lidx_main_v6 (ix2 R f) k = ix2 R k := fun k => funext fun a => by
    match a with | ⟨0, _⟩ => rfl | ⟨1, _⟩ => rfl
  have hr1 : ∀ k : Fin 8192, ridx_main_v1 (ix2 R f) k = ix2 k f := fun k => funext fun a => by
    match a with | ⟨0, _⟩ => rfl | ⟨1, _⟩ => rfl
  have hr3 : ∀ k : Fin 8192, ridx_main_v3 (ix2 R f) k = ix2 k f := fun k => funext fun a => by
    match a with | ⟨0, _⟩ => rfl | ⟨1, _⟩ => rfl
  have hr6 : ∀ k : Fin 8192, ridx_main_v6 (ix2 R f) k = ix2 k f := fun k => funext fun a => by
    match a with | ⟨0, _⟩ => rfl | ⟨1, _⟩ => rfl
  have hb : idx_main_v8 (idx_main_v9 (ix2 R f)) = ix1 f := funext fun a => by
    match a with | ⟨0, _⟩ => rfl
  have hrow : ∀ (L : SNN.Idx → EReal) (W : SNC.Idx → EReal),
      (∑ k : Fin 8192, L (ix2 R k) * W (ix2 k f)) = rowSum L W R.val f.val := fun L W => by
    unfold rowSum prodAt
    rw [Finset.sum_range]
    exact Finset.sum_congr rfl fun k _ => by rw [atNN_ix2, atNC_ix2]
  rw [val_main_v11_apply, val_main_v10_apply, val_main_v7_apply, val_main_v4_apply, val_main_v1_apply,
    val_main_v3_apply, val_main_v6_apply, val_main_v9_apply, val_main_v8_apply, val_main_call0_v0_apply,
    val_main_call0_cst_apply]
  simp only [hl1, hl3, hl6, hr1, hr3, hr6, hb]
  show max (((∑ k : Fin 8192, x1 (ix2 R k) * val_main_v0 (F := Ideal) x0 x4 (ix2 k f))
      + ∑ k : Fin 8192, x2 (ix2 R k) * val_main_v2 (F := Ideal) x0 x5 (ix2 k f))
      + (∑ k : Fin 8192, x3 (ix2 R k) * val_main_v5 (F := Ideal) x0 x6 (ix2 k f)) + x7 (ix1 f))
      (Ideal.ofBits .f32 0x00000000#32) = _
  rw [hrow x1, hrow x2, hrow x3, Ideal.ofBits_zero_f32]
  unfold convOut convAt
  show _ = max ((∑ j ∈ Finset.range 4, blockTerm x1 x2 x3 (val_main_v0 (F := Ideal) x0 x4)
      (val_main_v2 (F := Ideal) x0 x5) (val_main_v5 (F := Ideal) x0 x6) R.val f.val j) + atC x7 f.val) 0
  rw [blocks_eq_rows, atC_ix1]

end Cert.ReferenceIdeal.ConvRef

end
-- ==== Proof.lean ====
/-
  A graph-convolution layer followed by batch normalisation:  out = BN( relu( L0 (X W0) + L1 (X W1) + L2 (X W2) + bias ) ),
  with X : 8192 x 64, L_k : 8192 x 8192, W_k : 64 x 64, and BN over the 8192 nodes with scale gamma and shift beta.

  The kernel's program forms X W_k on the host, then walks a 16 x 4 grid: at point (i, j) it adds to a 512 x 64
  accumulator the three products of the (i, j) blocks (512 x 2048) of L0, L1, L2 with rows [2048 j, 2048 j + 2048) of
  X W0, X W1, X W2 — the accumulator zeroed at j = 0 — and at j = 3 writes back max(accumulator + bias, 0) as rows
  [512 i, 512 i + 512) of the layer; the host then normalises. The reference forms the three products whole, adds them,
  adds the bias, takes max with 0, and normalises with the same host operations.

  On the extended reals a rounding to bfloat16 is the identity, a matrix product is the plain sum of products, and
  addition is commutative and associative with unit 0 whatever the entries (the infinities included). So both layer
  arrays are ONE function of the argument arrays — entry (R, f) is max(sum over the four column blocks of their three
  shares + bias f, 0), which is the three whole row sums added (Proof/ConvSpec.lean, `blocks_eq_rows`) — and the two
  results are the same batch normalisation (Proof/BatchNorm.lean, never opened) of that one array. The finiteness of the
  inputs is not used.

  The kernel side: Proof/ConvPieces.lean (what each case of the body leaves, as one trip), ConvStepValue.lean (a trip at
  an entry), ConvAccum.lean (the accumulator after every point, by induction), ConvArray.lean (the blocks written back
  tile the layer array), KernelRun.lean (the host operations after the region). The reference side: RefValue.lean.
  The claim's conjunct about the kernel's idealization is stated as `True` (no operation was rewritten in forming it),
  so it holds trivially.
-/
import proofs.«165759_j17918603559109_2_alg».proof.Defs
import proofs.«165759_j17918603559109_2_alg».proof.Proof.Gen.Kernel
import proofs.«165759_j17918603559109_2_alg».proof.Proof.Gen.Kernel.Skeleton
import proofs.«165759_j17918603559109_2_alg».proof.Proof.Gen.Kernel.Launch
import proofs.«165759_j17918603559109_2_alg».proof.Proof.Gen.Kernel.Points
import proofs.«165759_j17918603559109_2_alg».proof.Proof.Gen.Kernel.Frame
import proofs.«165759_j17918603559109_2_alg».proof.Proof.Gen.KernelIdeal
import proofs.«165759_j17918603559109_2_alg».proof.Proof.Gen.KernelIdeal.Skeleton
import proofs.«165759_j17918603559109_2_alg».proof.Proof.Gen.KernelIdeal.Launch
import proofs.«165759_j17918603559109_2_alg».proof.Proof.Gen.KernelIdeal.Points
import proofs.«165759_j17918603559109_2_alg».proof.Proof.Gen.KernelIdeal.Frame
import proofs.«165759_j17918603559109_2_alg».proof.Proof.Gen.ReferenceIdeal
import proofs.«165759_j17918603559109_2_alg».proof.Proof.Gen.Pre_finite_inputs
import proofs.«165759_j17918603559109_2_alg».proof.Proof.Gen.ReferenceIdeal.Run
import proofs.«165759_j17918603559109_2_alg».proof.Proof.Gen.ReferenceIdeal.Read
import proofs.«165759_j17918603559109_2_alg».proof.Proof.KernelRun
import proofs.«165759_j17918603559109_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs and keeps its arguments. -/
theorem frame_kernel : Cert.frame_Kernel :=
  fun m ρ _ => Cert.Kernel.Gen.frame m ρ

/-- So does its reading on the extended reals. -/
theorem frame_kernelIdeal : Cert.frame_KernelIdeal :=
  fun m ρ _ => Cert.KernelIdeal.Gen.frame m ρ

/-- The reference runs and keeps its arguments: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- Both programs end at the batch normalisation of one layer array: the kernel's by its run read back, the
    reference's by its run regrouped by column blocks, on arguments that agree. -/
theorem algebraic : Cert.algebraic_KernelIdeal_ReferenceIdeal := by
  intro m ρ m' ρ' _ hagree
  refine ⟨fun c => Cert.KernelIdeal.ConvBody.result m c, Cert.KernelIdeal.ConvBody.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  show Cert.ReferenceIdeal.Value.res_main_v36 m' c = Cert.KernelIdeal.ConvBody.result m c
  rw [Cert.ReferenceIdeal.Read.val_main_v36_eq, Cert.ReferenceIdeal.ConvRef.result_is_batchNorm,
    Cert.ReferenceIdeal.ConvRef.layer_is_convOut, a0, a1, a2, a3, a4, a5, a6, a7, a8, a9]
  unfold Cert.KernelIdeal.ConvBody.result Cert.KernelIdeal.ConvBody.layer
  rw [Cert.KernelIdeal.ConvBody.features0, Cert.KernelIdeal.ConvBody.features1, Cert.KernelIdeal.ConvBody.features2]
  unfold Cert.ReferenceIdeal.Read.val_main_v0 Cert.ReferenceIdeal.Read.val_main_v2 Cert.ReferenceIdeal.Read.val_main_v5
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
